-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x32 : S_.BroadcastsInDim S96x32 (![] : Fin 0 → Fin S96x32.rank)
  reducesTo_S96x32_S_d0_1 : S96x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S96 .f32) (main_arg6 : FVec F S96x32 .f32) (main_arg7 : FVec F S32 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x32 .f32 := Host.absf main_arg6
  let main_cst_8 : FVec F S_ .f32 := constant S_ .f32 0x7F800000#32
  let main_v25 : FVec F S96x32 .f32 := broadcastInDim S96x32 ![] bcast_S_S96x32 main_cst_8
  let main_v26 : IVec S96x32 1 := cmpf .olt main_v24 main_v25
  let main_c_9 : IVec S_ 1 := constantI S_ 1 1#1
  let main_v27 : IVec S_ 1 := (fun x v => Host.reduce IntOp.andi x v reducesTo_S96x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x96 .f32) (main_arg3 : FVec F S96 .f32) (main_arg4 : FVec F S96x96 .f32) (main_arg5 : FVec F S96 .f32) (main_arg6 : FVec F S96x32 .f32) (main_arg7 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x96 .f32 := Host.absf main_arg2
  let main_cst_0 : FVec F S_ .f32 := constant S_ .f32 0x7F800000#32
  let main_v5 : FVec F S64x96 .f32 := broadcastInDim S64x96 ![] bcast_S_S64x96 main_cst_0
  let main_v6 : IVec S64x96 1 := cmpf .olt main_v4 main_v5
  let main_c_1 : IVec S_ 1 := constantI S_ 1 1#1
  let main_v7 : IVec S_ 1 := (fun x v => Host.reduce IntOp.andi x v reducesTo_S64x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x64 : Shape := ⟨2, ![5000, 64]⟩
abbrev S5000x96 : Shape := ⟨2, ![5000, 96]⟩
abbrev S850000x96 : Shape := ⟨2, ![850000, 96]⟩
abbrev S1x96 : Shape := ⟨2, ![1, 96]⟩
abbrev S1x32 : Shape := ⟨2, ![1, 32]⟩
abbrev S50000x32 : Shape := ⟨2, ![50000, 32]⟩
abbrev S5000x32 : Shape := ⟨2, ![5000, 32]⟩

abbrev nBuf : Space → Nat
  | .hbm => 79
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x96, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x96, .f32⟩
  | .hbm, ⟨51, _⟩ => ⟨S850000x1, .f32⟩
  | .hbm, ⟨52, _⟩ => ⟨S850000x96, .f32⟩
  | .hbm, ⟨53, _⟩ => ⟨S850000x96, .f32⟩
  | .hbm, ⟨54, _⟩ => ⟨S_, .f32⟩
  | .hbm, ⟨55, _⟩ => ⟨S50000x96, .f32⟩
  | .hbm, ⟨56, _⟩ => ⟨S850000x1, .i32⟩
  | .hbm, ⟨57, _⟩ => ⟨S50000x96, .f32⟩
  | .hbm, ⟨58, _⟩ => ⟨S1x96, .f32⟩
  | .hbm, ⟨59, _⟩ => ⟨S50000x96, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x96, .f32⟩
  | .hbm, ⟨69, _⟩ => ⟨S850000x1, .f32⟩
  | .hbm, ⟨70, _⟩ => ⟨S850000x96, .f32⟩
  | .hbm, ⟨71, _⟩ => ⟨S850000x96, .f32⟩
  | .hbm, ⟨72, _⟩ => ⟨S_, .f32⟩
  | .hbm, ⟨73, _⟩ => ⟨S50000x96, .f32⟩
  | .hbm, ⟨74, _⟩ => ⟨S850000x1, .i32⟩
  | .hbm, ⟨75, _⟩ => ⟨S50000x96, .f32⟩
  | .hbm, ⟨76, _⟩ => ⟨S1x96, .f32⟩
  | .hbm, ⟨77, _⟩ => ⟨S1x32, .f32⟩
  | .hbm, ⟨78, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S64x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S1x96, .f32⟩
  | .local _ .vmem, ⟨14, _⟩ => ⟨S96x32, .f32⟩
  | .local _ .vmem, ⟨15, _⟩ => ⟨S1x32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x96_S64x96_0_0 : ∀ a, (![0, 0] : Fin 2 → Nat) a + S64x96.size a ≤ S64x96.size a
  h_S64x96 : 0 < S64x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  shapeCasts_S32_S1x32 : S32.ShapeCasts S1x32
  inb_S96x32_S96x32_0_0 : ∀ a, (![0, 0] : Fin 2 → Nat) a + S96x32.size a ≤ S96x32.size a
  h_S96x32 : 0 < S96x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x96_S5000x96_1_0_0_1_n_n_wf : DotDims.WF S5000x64 S64x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x32_S5000x32_1_0_0_1_n_n_wf : DotDims.WF S5000x96 S96x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x96.size a ≤ S64x96.size a
  hwx0_1 : ∀ i : grid0.Coords, EltTy.bits .f32 = 32 ∨ (Rect.block (s := S64x96) S64x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x32.size a ≤ S96x32.size a
  hwx2_2 : ∀ i : grid2.Coords, EltTy.bits .f32 = 32 ∨ (Rect.block (s := S96x32) S96x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S50000x32.size a
  hwx2_4 : ∀ i : grid2.Coords, EltTy.bits .f32 = 32 ∨ (Rect.block (s := S50000x32) S5000x32.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x96_S5000x96_1_0_0_1_n_n : DotDims S5000x64 S64x96 S5000x96 where
  lhsContracting := [1]
  rhsContracting := [0]
  lhsNonContracting := [0]
  rhsNonContracting := [1]
  lhsBatch := []
  rhsBatch := []
  wf := dot_S5000x64_S64x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x32_S5000x32_1_0_0_1_n_n : DotDims S5000x96 S96x32 S5000x32 where
  lhsContracting := [1]
  rhsContracting := [0]
  lhsNonContracting := [0]
  rhsNonContracting := [1]
  lhsBatch := []
  rhsBatch := []
  wf := dot_S5000x96_S96x32_S5000x32_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S96x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x96 : Shape := ⟨2, ![64, 96]⟩
abbrev S96 : Shape := ⟨1, ![96]⟩
abbrev S96x96 : Shape := ⟨2, ![96, 96]⟩
abbrev S96x32 : Shape := ⟨2, ![96, 32]⟩
abbrev S32 : Shape := ⟨1, ![32]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x32 : Shape := ⟨2, ![50000, 32]⟩
abbrev S1x32 : Shape := ⟨2, ![1, 32]⟩

abbrev nBuf : Space → Nat
  | .hbm => 91
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x32, .f32⟩
  | .hbm, ⟨7, _⟩ => ⟨S32, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x96, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x96, .f32⟩
  | .hbm, ⟨51, _⟩ => ⟨S850000x1, .f32⟩
  | .hbm, ⟨52, _⟩ => ⟨S850000x96, .f32⟩
  | .hbm, ⟨53, _⟩ => ⟨S850000x96, .f32⟩
  | .hbm, ⟨54, _⟩ => ⟨S_, .f32⟩
  | .hbm, ⟨55, _⟩ => ⟨S50000x96, .f32⟩
  | .hbm, ⟨56, _⟩ => ⟨S850000x1, .i32⟩
  | .hbm, ⟨57, _⟩ => ⟨S50000x96, .f32⟩
  | .hbm, ⟨58, _⟩ => ⟨S1x96, .f32⟩
  | .hbm, ⟨59, _⟩ => ⟨S50000x96, .f32⟩
  | .hbm, ⟨60, _⟩ => ⟨S50000x96, .f32⟩
  | .hbm, ⟨61, _⟩ => ⟨S_, .f32⟩
  | .hbm, ⟨62, _⟩ => ⟨S50000x96, .f32⟩
  | .hbm, ⟨63, _⟩ => ⟨S50000x96, .f32⟩
  | .hbm, ⟨64, _⟩ => ⟨S50000x96, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x96, .f32⟩
  | .hbm, ⟨74, _⟩ => ⟨S850000x1, .f32⟩
  | .hbm, ⟨75, _⟩ => ⟨S850000x96, .f32⟩
  | .hbm, ⟨76, _⟩ => ⟨S850000x96, .f32⟩
  | .hbm, ⟨77, _⟩ => ⟨S_, .f32⟩
  | .hbm, ⟨78, _⟩ => ⟨S50000x96, .f32⟩
  | .hbm, ⟨79, _⟩ => ⟨S850000x1, .i32⟩
  | .hbm, ⟨80, _⟩ => ⟨S50000x96, .f32⟩
  | .hbm, ⟨81, _⟩ => ⟨S1x96, .f32⟩
  | .hbm, ⟨82, _⟩ => ⟨S50000x96, .f32⟩
  | .hbm, ⟨83, _⟩ => ⟨S50000x96, .f32⟩
  | .hbm, ⟨84, _⟩ => ⟨S_, .f32⟩
  | .hbm, ⟨85, _⟩ => ⟨S50000x96, .f32⟩
  | .hbm, ⟨86, _⟩ => ⟨S50000x96, .f32⟩
  | .hbm, ⟨87, _⟩ => ⟨S50000x32, .f32⟩
  | .hbm, ⟨88, _⟩ => ⟨S1x32, .f32⟩
  | .hbm, ⟨89, _⟩ => ⟨S50000x32, .f32⟩
  | .hbm, ⟨90, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x96_S50000x96_1_0_0_1_n_n_wf : DotDims.WF S50000x64 S64x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x32_S50000x32_1_0_0_1_n_n_wf : DotDims.WF S50000x96 S96x32 S50000x32 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x96_S50000x96_1_0_0_1_n_n : DotDims S50000x64 S64x96 S50000x96 where
  lhsContracting := [1]
  rhsContracting := [0]
  lhsNonContracting := [0]
  rhsNonContracting := [1]
  lhsBatch := []
  rhsBatch := []
  wf := dot_S50000x64_S64x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x32_S50000x32_1_0_0_1_n_n : DotDims S50000x96 S96x32 S50000x32 where
  lhsContracting := [1]
  rhsContracting := [0]
  lhsNonContracting := [0]
  rhsNonContracting := [1]
  lhsBatch := []
  rhsBatch := []
  wf := dot_S50000x96_S96x32_S50000x32_1_0_0_1_n_n_wf

class Facts : Prop extends Facts₀ where

variable [Facts]
-- ==== Proof.Result.lean ====
/-
  The kernel program's run with its result named: every weakly fair execution of @main terminates, without a fault,
  with the result buffer holding what the last region's write-backs leave — the contents `W6` at the last segment
  boundary, read at the result's buffer — and with the argument arrays as launched.

  @main is six segments: a stretch of host operations, the first product's region, the host aggregation, the second
  product's region, the host aggregation again, and the head's region. The buffer contents at each boundary are the
  fold `W0 … W6` of the launch memory through the segments; the final state holds every unscoped buffer at `W6`.
  Stated at any float instance.
-/
import proofs.«152318_j37847251812925_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments' chain from the launch state, the last thread state read against the final state; the
    result's buffer is unscoped, so it is read at `W6`; each argument walks back through the fold to the launch. -/
theorem run : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Result

end
-- ==== Proof.Aggregate.lean ====
/-
  The host side of the kernel program, between its three regions, read through the reference's own stages.

  Both programs build the same graph data from the edge list on the host — source and destination nodes with the
  self loops appended, the degrees, the symmetric normalisation per edge — and aggregate a feature map the same way:
  gather the source rows, scale each by its edge's coefficient, scatter-add into the destination rows. The kernel
  program does this with the same operations in the same order as the reference, so after each host stretch the
  buffers the next region reads hold the reference's stage of the argument arrays, given that the previous region left
  the reference's dense stage in its output. The aggregation is never opened: it is the same function on both sides.

  Three kinds of fact, per boundary of @main: a buffer no operation of a stretch writes keeps its contents; a region
  leaves every buffer that is not one of its arrays as it found it; and a stretch's results are its operations'
  composed term of what it found. The one-row biases are the bias vectors with a unit axis in front.
-/
import proofs.«152318_j37847251812925_1_alg».proof.Proof.Gen.KernelIdeal.Frame
import proofs.«152318_j37847251812925_1_alg».proof.Proof.Gen.ReferenceIdeal.Read
import Idealize.ShloMosaic.Lib.StableHlo.Run
import Idealize.ShloMosaic.Lib.ValueLayout

set_option maxRecDepth 16384

noncomputable section

namespace Cert.KernelIdeal.Aggregate

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read

variable (m : (ℓ : Loc nD τ sig) → Buf (Elt Ideal) ℓ) (ρ : Dev nD → PrngReg)

/-! ## Before the first region: the graph data, and the arguments untouched -/

theorem entry0_arg0 (c : Dev nD) : W1 m ρ c (Proc.devRef .tc main_arg0) = m ((c.tc : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg2 (c : Dev nD) : W1 m ρ c (Proc.devRef .tc main_arg2) = m ((c.tc : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg3 (c : Dev nD) : W1 m ρ c (Proc.devRef .tc main_arg3) = m ((c.tc : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg4 (c : Dev nD) : W1 m ρ c (Proc.devRef .tc main_arg4) = m ((c.tc : Thread nD τ).loc main_arg4) :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg5 (c : Dev nD) : W1 m ρ c (Proc.devRef .tc main_arg5) = m ((c.tc : Thread nD τ).loc main_arg5) :=
  (StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg6 (c : Dev nD) : W1 m ρ c (Proc.devRef .tc main_arg6) = m ((c.tc : Thread nD τ).loc main_arg6) :=
  (StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem entry0_arg7 (c : Dev nD) : W1 m ρ c (Proc.devRef .tc main_arg7) = m ((c.tc : Thread nD τ).loc main_arg7) :=
  (StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The source node of every edge, self loops appended. -/
theorem entry0_v3 (c : Dev nD) : W1 m ρ c (Proc.devRef .tc main_v3) = val_main_v3 (F := Ideal) (m ((c.tc : Thread nD τ).loc main_arg1)) := by
  show StableHlo.after hostOps0 (W0 m ρ c) (Proc.devRef .tc main_v3) = _
  after_results_simp <;> rfl
/-- The destination node of every edge, self loops appended. -/
theorem entry0_v6 (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results_simp <;> rfl
/-- The edge coefficients: the product of the two end nodes' inverse square-root degrees. -/
theorem entry0_v26 (c : Dev nD) : W1 m ρ c (Proc.devRef .tc main_v26) = val_main_v26 (F := Ideal) (m ((c.tc : Thread nD τ).loc main_arg1)) := by
  show StableHlo.after hostOps0 (W0 m ρ c) (Proc.devRef .tc main_v26) = _
  after_results_simp <;> rfl

/-! ## Across the first region: everything but its three arrays is kept -/

theorem exit0_arg3 (c : Dev nD) : W2 m ρ c (Proc.devRef .tc main_arg3) = m ((c.tc : Thread nD τ).loc main_arg3) :=
  (W2_of_ne m ρ c main_arg3 (by decide)).trans (entry0_arg3 m ρ c)
theorem exit0_arg4 (c : Dev nD) : W2 m ρ c (Proc.devRef .tc main_arg4) = m ((c.tc : Thread nD τ).loc main_arg4) :=
  (W2_of_ne m ρ c main_arg4 (by decide)).trans (entry0_arg4 m ρ c)
theorem exit0_arg5 (c : Dev nD) : W2 m ρ c (Proc.devRef .tc main_arg5) = m ((c.tc : Thread nD τ).loc main_arg5) :=
  (W2_of_ne m ρ c main_arg5 (by decide)).trans (entry0_arg5 m ρ c)
theorem exit0_arg6 (c : Dev nD) : W2 m ρ c (Proc.devRef .tc main_arg6) = m ((c.tc : Thread nD τ).loc main_arg6) :=
  (W2_of_ne m ρ c main_arg6 (by decide)).trans (entry0_arg6 m ρ c)
theorem exit0_arg7 (c : Dev nD) : W2 m ρ c (Proc.devRef .tc main_arg7) = m ((c.tc : Thread nD τ).loc main_arg7) :=
  (W2_of_ne m ρ c main_arg7 (by decide)).trans (entry0_arg7 m ρ c)
theorem exit0_v3 (c : Dev nD) : W2 m ρ c (Proc.devRef .tc main_v3) = val_main_v3 (F := Ideal) (m ((c.tc : Thread nD τ).loc main_arg1)) :=
  (W2_of_ne m ρ c main_v3 (by decide)).trans (entry0_v3 m ρ c)
theorem exit0_v6 (c : Dev nD) : W2 m ρ c (Proc.devRef .tc main_v6) = val_main_v6 (F := Ideal) (m ((c.tc : Thread nD τ).loc main_arg1)) :=
  (W2_of_ne m ρ c main_v6 (by decide)).trans (entry0_v6 m ρ c)
theorem exit0_v26 (c : Dev nD) : W2 m ρ c (Proc.devRef .tc main_v26) = val_main_v26 (F := Ideal) (m ((c.tc : Thread nD τ).loc main_arg1)) :=
  (W2_of_ne m ρ c main_v26 (by decide)).trans (entry0_v26 m ρ c)

/-! ## The first aggregation -/

theorem entry1_arg4 (c : Dev nD) : W3 m ρ c (Proc.devRef .tc main_arg4) = m ((c.tc : Thread nD τ).loc main_arg4) :=
  (StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_arg4 m ρ c)
theorem entry1_arg5 (c : Dev nD) : W3 m ρ c (Proc.devRef .tc main_arg5) = m ((c.tc : Thread nD τ).loc main_arg5) :=
  (StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_arg5 m ρ c)
theorem entry1_arg6 (c : Dev nD) : W3 m ρ c (Proc.devRef .tc main_arg6) = m ((c.tc : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_arg6 m ρ c)
theorem entry1_arg7 (c : Dev nD) : W3 m ρ c (Proc.devRef .tc main_arg7) = m ((c.tc : Thread nD τ).loc main_arg7) :=
  (StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_arg7 m ρ c)
theorem entry1_v3 (c : Dev nD) : W3 m ρ c (Proc.devRef .tc main_v3) = val_main_v3 (F := Ideal) (m ((c.tc : Thread nD τ).loc main_arg1)) :=
  (StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_v3 m ρ c)
theorem entry1_v6 (c : Dev nD) : W3 m ρ c (Proc.devRef .tc main_v6) = val_main_v6 (F := Ideal) (m ((c.tc : Thread nD τ).loc main_arg1)) :=
  (StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_v6 m ρ c)
theorem entry1_v26 (c : Dev nD) : W3 m ρ c (Proc.devRef .tc main_v26) = val_main_v26 (F := Ideal) (m ((c.tc : Thread nD τ).loc main_arg1)) :=
  (StableHlo.after_of_forall_not_mem (b := Proc.devRef .tc main_v26) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit0_v26 m ρ c)

/-- If the first region left x · W1 in its output, the aggregation leaves the reference's first aggregate. -/
theorem aggregate1 (c : Dev nD) (x0 : (⟨S50000x64, .f32⟩ : BufTy).Contents (Elt Ideal)) (x2 : (⟨S64x96, .f32⟩ : BufTy).Contents (Elt Ideal))
    (h : W2 m ρ c (Proc.devRef .tc main_v27) = val_main_v27 (F := Ideal) x0 x2) :
    W3 m ρ c (Proc.devRef .tc main_v40) = val_main_v40 (F := Ideal) x0 (m ((c.tc : Thread nD τ).loc main_arg1)) x2 := by
  show StableHlo.after hostOps1 (W2 m ρ c) (Proc.devRef .tc main_v40) = _
  after_results_simp
  rw [h, exit0_v3, exit0_v6, exit0_v26]
  rfl

/-- The first layer's bias as a one-row matrix: entry (0, k) is the bias vector's entry k. -/
theorem bias_row1 (c : Dev nD) (k : Fin 96) :
    (W3 m ρ c (Proc.devRef .tc main_v41) : S1x96.Idx → Elt Ideal .f32) (ix2 0 k) = (m ((c.tc : Thread nD τ).loc main_arg3) : S96.Idx → Elt Ideal .f32) (ix1 k) := by
  have h : W3 m ρ c (Proc.devRef .tc main_v41) = shapeCast S1x96 (W2 m ρ c (Proc.devRef .tc main_arg3)) shapeCasts_S96_S1x96 := by
    show StableHlo.after hostOps1 (W2 m ρ c) (Proc.devRef .tc main_v41) = _
    after_results_simp <;> rfl
  rw [h, exit0_arg3]
  exact shapeCast_a_1a_apply _ shapeCasts_S96_S1x96 0 k

/-! ## Across the second region, and the second aggregation -/

theorem exit1_arg5 (c : Dev nD) : W4 m ρ c (Proc.devRef .tc main_arg5) = m ((c.tc : Thread nD τ).loc main_arg5) :=
  (W4_of_ne m ρ c main_arg5 (by decide)).trans (entry1_arg5 m ρ c)
theorem exit1_arg6 (c : Dev nD) : W4 m ρ c (Proc.devRef .tc main_arg6) = m ((c.tc : Thread nD τ).loc main_arg6) :=
  (W4_of_ne m ρ c main_arg6 (by decide)).trans (entry1_arg6 m ρ c)
theorem exit1_arg7 (c : Dev nD) : W4 m ρ c (Proc.devRef .tc main_arg7) = m ((c.tc : Thread nD τ).loc main_arg7) :=
  (W4_of_ne m ρ c main_arg7 (by decide)).trans (entry1_arg7 m ρ c)
theorem exit1_v3 (c : Dev nD) : W4 m ρ c (Proc.devRef .tc main_v3) = val_main_v3 (F := Ideal) (m ((c.tc : Thread nD τ).loc main_arg1)) :=
  (W4_of_ne m ρ c main_v3 (by decide)).trans (entry1_v3 m ρ c)
theorem exit1_v6 (c : Dev nD) : W4 m ρ c (Proc.devRef .tc main_v6) = val_main_v6 (F := Ideal) (m ((c.tc : Thread nD τ).loc main_arg1)) :=
  (W4_of_ne m ρ c main_v6 (by decide)).trans (entry1_v6 m ρ c)
theorem exit1_v26 (c : Dev nD) : W4 m ρ c (Proc.devRef .tc main_v26) = val_main_v26 (F := Ideal) (m ((c.tc : Thread nD τ).loc main_arg1)) :=
  (W4_of_ne m ρ c main_v26 (by decide)).trans (entry1_v26 m ρ c)

/-- The head's weights reach the last region untouched. -/
theorem entry2_arg6 (c : Dev nD) : W5 m ρ c (Proc.devRef .tc main_arg6) = m ((c.tc : Thread nD τ).loc main_arg6) :=
  (StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (exit1_arg6 m ρ c)

/-- If the second region left relu(agg₁ + b1) · W2 in its output, the aggregation leaves the reference's second aggregate. -/
theorem aggregate2 (c : Dev nD) (x0 : (⟨S50000x64, .f32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal))
    (h : W4 m ρ c (Proc.devRef .tc main_v42) = val_main_v45 (F := Ideal) x0 (m ((c.tc : Thread nD τ).loc main_arg1)) x2 x3 x4) :
    W5 m ρ c (Proc.devRef .tc main_v55) = val_main_v58 (F := Ideal) x0 (m ((c.tc : Thread nD τ).loc main_arg1)) x2 x3 x4 := by
  show StableHlo.after hostOps2 (W4 m ρ c) (Proc.devRef .tc main_v55) = _
  after_results_simp
  rw [h, exit1_v3, exit1_v6, exit1_v26]
  rfl

/-- The second layer's bias as a one-row matrix. -/
theorem bias_row2 (c : Dev nD) (k : Fin 96) :
    (W5 m ρ c (Proc.devRef .tc main_v56) : S1x96.Idx → Elt Ideal .f32) (ix2 0 k) = (m ((c.tc : Thread nD τ).loc main_arg5) : S96.Idx → Elt Ideal .f32) (ix1 k) := by
  have h : W5 m ρ c (Proc.devRef .tc main_v56) = shapeCast S1x96 (W4 m ρ c (Proc.devRef .tc main_arg5)) shapeCasts_S96_S1x96 := by
    show StableHlo.after hostOps2 (W4 m ρ c) (Proc.devRef .tc main_v56) = _
    after_results_simp <;> rfl
  rw [h, exit1_arg5]
  exact shapeCast_a_1a_apply _ shapeCasts_S96_S1x96 0 k

/-- The head's bias as a one-row matrix. -/
theorem bias_row_head (c : Dev nD) (q : Fin 32) :
    (W5 m ρ c (Proc.devRef .tc main_v57) : S1x32.Idx → Elt Ideal .f32) (ix2 0 q) = (m ((c.tc : Thread nD τ).loc main_arg7) : S32.Idx → Elt Ideal .f32) (ix1 q) := by
  have h : W5 m ρ c (Proc.devRef .tc main_v57) = shapeCast S1x32 (W4 m ρ c (Proc.devRef .tc main_arg7)) shapeCasts_S32_S1x32 := by
    show StableHlo.after hostOps2 (W4 m ρ c) (Proc.devRef .tc main_v57) = _
    after_results_simp <;> rfl
  rw [h, exit1_arg7]
  exact shapeCast_a_1a_apply _ shapeCasts_S32_S1x32 0 q

end Cert.KernelIdeal.Aggregate

end
-- ==== Proof.Dense.lean ====
/-
  The three dense stages of the two-layer graph convolution, as the kernel's bodies compute them on one block of
  5000 rows, read at a row `p` and a column `q` over the extended reals.

  * first layer's feature map: block · W1, entry (p, q) = ∑ₖ x(p,k) · W1(k,q);
  * second layer's feature map: relu(block + b1) · W2, entry (p, q) = ∑ₖ max (a(p,k) + b1(0,k)) 0 · W2(k,q);
  * the linear head: relu(block + b2) · Wfc + bfc, entry (p, q) = (∑ₖ max (a(p,k) + b2(0,k)) 0 · Wfc(k,q)) + bfc(0,q).

  Rounding the operands to bf16 on the way into each product is the identity on the extended reals, and a product
  into a zero accumulator is the plain sum. The zero of the relu is kept as the word the program spells.
-/
import proofs.«152318_j37847251812925_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

variable [hF : Cert.KernelIdeal.Facts]

/-! ## The three products, each at a row and a column -/

/-- The contraction's left operand index keeps the output's row. -/
theorem mm1_lhs_row (i : S5000x96.Idx) (q : dot_S5000x64_S64x96_S5000x96_1_0_0_1_n_n.contr.Idx) :
    (dot_S5000x64_S64x96_S5000x96_1_0_0_1_n_n.lhsIdx i q 0).val = (i 0).val := by
  unfold DotDims.lhsIdx
  rw [dif_neg (show ¬(0 : Fin S5000x64.rank) ∈ dot_S5000x64_S64x96_S5000x96_1_0_0_1_n_n.lhsBatch by decide), dif_pos (show (0 : Fin S5000x64.rank) ∈ dot_S5000x64_S64x96_S5000x96_1_0_0_1_n_n.lhsNonContracting by decide)]
  rfl
/-- ... and takes the summation index as its column. -/
theorem mm1_lhs_col (i : S5000x96.Idx) (q : dot_S5000x64_S64x96_S5000x96_1_0_0_1_n_n.contr.Idx) :
    (dot_S5000x64_S64x96_S5000x96_1_0_0_1_n_n.lhsIdx i q 1).val = (q ⟨0, by decide⟩).val :=
  dot_S5000x64_S64x96_S5000x96_1_0_0_1_n_n.lhsIdx_val_of_single rfl i q
/-- The right operand index takes the summation index as its row. -/
theorem mm1_rhs_row (i : S5000x96.Idx) (q : dot_S5000x64_S64x96_S5000x96_1_0_0_1_n_n.contr.Idx) :
    (dot_S5000x64_S64x96_S5000x96_1_0_0_1_n_n.rhsIdx i q 0).val = (q ⟨0, by decide⟩).val :=
  dot_S5000x64_S64x96_S5000x96_1_0_0_1_n_n.rhsIdx_val_of_single rfl i q
/-- ... and keeps the output's column. -/
theorem mm1_rhs_col (i : S5000x96.Idx) (q : dot_S5000x64_S64x96_S5000x96_1_0_0_1_n_n.contr.Idx) :
    (dot_S5000x64_S64x96_S5000x96_1_0_0_1_n_n.rhsIdx i q 1).val = (i 1).val := by
  unfold DotDims.rhsIdx
  rw [dif_neg (show ¬(1 : Fin S64x96.rank) ∈ dot_S5000x64_S64x96_S5000x96_1_0_0_1_n_n.rhsBatch by decide), dif_pos (show (1 : Fin S64x96.rank) ∈ dot_S5000x64_S64x96_S5000x96_1_0_0_1_n_n.rhsNonContracting by decide)]
  rfl

/-- A product into the zero accumulator, read at row `p` and column `q`: the sum over the 64 shared coordinates of
    the left operand's row entry times the right operand's column entry. -/
theorem mm1_apply (a : FVec Ideal S5000x64 .bf16) (w : FVec Ideal S64x96 .bf16) (p : Fin 5000) (q : Fin 96) :
    matmul dot_S5000x64_S64x96_S5000x96_1_0_0_1_n_n none a w (constant S5000x96 .f32 0x00000000#32) (ix2 p q)
      = ∑ k : Fin 64, a (ix2 p k) * w (ix2 k q) := by
  refine (Ideal.matmul_constant_zero_apply dot_S5000x64_S64x96_S5000x96_1_0_0_1_n_n none a w (ix2 p q)).trans ?_
  rw [← Equiv.sum_comp (contrEquiv1 dot_S5000x64_S64x96_S5000x96_1_0_0_1_n_n 64 rfl rfl).symm]
  refine Finset.sum_congr rfl fun k _ => ?_
  have hk := contrEquiv1_symm_val dot_S5000x64_S64x96_S5000x96_1_0_0_1_n_n 64 rfl rfl k
  have el : dot_S5000x64_S64x96_S5000x96_1_0_0_1_n_n.lhsIdx (ix2 p q) ((contrEquiv1 dot_S5000x64_S64x96_S5000x96_1_0_0_1_n_n 64 rfl rfl).symm k) = ix2 p k := funext fun x => Fin.ext (by
    match x with
    | ⟨0, _⟩ => exact mm1_lhs_row _ _
    | ⟨1, _⟩ => exact (mm1_lhs_col _ _).trans hk)
  have er : dot_S5000x64_S64x96_S5000x96_1_0_0_1_n_n.rhsIdx (ix2 p q) ((contrEquiv1 dot_S5000x64_S64x96_S5000x96_1_0_0_1_n_n 64 rfl rfl).symm k) = ix2 k q := funext fun x => Fin.ext (by
    match x with
    | ⟨0, _⟩ => exact (mm1_rhs_row _ _).trans hk
    | ⟨1, _⟩ => exact mm1_rhs_col _ _)
  rw [el, er]

/-- The contraction's left operand index keeps the output's row. -/
theorem mm2_lhs_row (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
/-- ... and takes the summation index as its column. -/
theorem mm2_lhs_col (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
/-- The right operand index takes the summation index as its row. -/
theorem mm2_rhs_row (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
/-- ... and keeps the output's column. -/
theorem mm2_rhs_col (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- A product into the zero accumulator, read at row `p` and column `q`: the sum over the 96 shared coordinates of
    the left operand's row entry times the right operand's column entry. -/
theorem mm2_apply (a : FVec Ideal S5000x96 .bf16) (w : FVec Ideal S96x96 .bf16) (p : Fin 5000) (q : Fin 96) :
    matmul dot_S5000x96_S96x96_S5000x96_1_0_0_1_n_n none a w (constant S5000x96 .f32 0x00000000#32) (ix2 p q)
      = ∑ k : Fin 96, a (ix2 p k) * w (ix2 k q) := by
  refine (Ideal.matmul_constant_zero_apply dot_S5000x96_S96x96_S5000x96_1_0_0_1_n_n none a w (ix2 p q)).trans ?_
  rw [← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun x => Fin.ext (by
    match x with
    | ⟨0, _⟩ => exact mm2_lhs_row _ _
    | ⟨1, _⟩ => exact (mm2_lhs_col _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun x => Fin.ext (by
    match x with
    | ⟨0, _⟩ => exact (mm2_rhs_row _ _).trans hk
    | ⟨1, _⟩ => exact mm2_rhs_col _ _)
  rw [el, er]

/-- The contraction's left operand index keeps the output's row. -/
theorem mm3_lhs_row (i : S5000x32.Idx) (q : dot_S5000x96_S96x32_S5000x32_1_0_0_1_n_n.contr.Idx) :
    (dot_S5000x96_S96x32_S5000x32_1_0_0_1_n_n.lhsIdx i q 0).val = (i 0).val := by
  unfold DotDims.lhsIdx
  rw [dif_neg (show ¬(0 : Fin S5000x96.rank) ∈ dot_S5000x96_S96x32_S5000x32_1_0_0_1_n_n.lhsBatch by decide), dif_pos (show (0 : Fin S5000x96.rank) ∈ dot_S5000x96_S96x32_S5000x32_1_0_0_1_n_n.lhsNonContracting by decide)]
  rfl
/-- ... and takes the summation index as its column. -/
theorem mm3_lhs_col (i : S5000x32.Idx) (q : dot_S5000x96_S96x32_S5000x32_1_0_0_1_n_n.contr.Idx) :
    (dot_S5000x96_S96x32_S5000x32_1_0_0_1_n_n.lhsIdx i q 1).val = (q ⟨0, by decide⟩).val :=
  dot_S5000x96_S96x32_S5000x32_1_0_0_1_n_n.lhsIdx_val_of_single rfl i q
/-- The right operand index takes the summation index as its row. -/
theorem mm3_rhs_row (i : S5000x32.Idx) (q : dot_S5000x96_S96x32_S5000x32_1_0_0_1_n_n.contr.Idx) :
    (dot_S5000x96_S96x32_S5000x32_1_0_0_1_n_n.rhsIdx i q 0).val = (q ⟨0, by decide⟩).val :=
  dot_S5000x96_S96x32_S5000x32_1_0_0_1_n_n.rhsIdx_val_of_single rfl i q
/-- ... and keeps the output's column. -/
theorem mm3_rhs_col (i : S5000x32.Idx) (q : dot_S5000x96_S96x32_S5000x32_1_0_0_1_n_n.contr.Idx) :
    (dot_S5000x96_S96x32_S5000x32_1_0_0_1_n_n.rhsIdx i q 1).val = (i 1).val := by
  unfold DotDims.rhsIdx
  rw [dif_neg (show ¬(1 : Fin S96x32.rank) ∈ dot_S5000x96_S96x32_S5000x32_1_0_0_1_n_n.rhsBatch by decide), dif_pos (show (1 : Fin S96x32.rank) ∈ dot_S5000x96_S96x32_S5000x32_1_0_0_1_n_n.rhsNonContracting by decide)]
  rfl

/-- A product into the zero accumulator, read at row `p` and column `q`: the sum over the 96 shared coordinates of
    the left operand's row entry times the right operand's column entry. -/
theorem mm3_apply (a : FVec Ideal S5000x96 .bf16) (w : FVec Ideal S96x32 .bf16) (p : Fin 5000) (q : Fin 32) :
    matmul dot_S5000x96_S96x32_S5000x32_1_0_0_1_n_n none a w (constant S5000x32 .f32 0x00000000#32) (ix2 p q)
      = ∑ k : Fin 96, a (ix2 p k) * w (ix2 k q) := by
  refine (Ideal.matmul_constant_zero_apply dot_S5000x96_S96x32_S5000x32_1_0_0_1_n_n none a w (ix2 p q)).trans ?_
  rw [← Equiv.sum_comp (contrEquiv1 dot_S5000x96_S96x32_S5000x32_1_0_0_1_n_n 96 rfl rfl).symm]
  refine Finset.sum_congr rfl fun k _ => ?_
  have hk := contrEquiv1_symm_val dot_S5000x96_S96x32_S5000x32_1_0_0_1_n_n 96 rfl rfl k
  have el : dot_S5000x96_S96x32_S5000x32_1_0_0_1_n_n.lhsIdx (ix2 p q) ((contrEquiv1 dot_S5000x96_S96x32_S5000x32_1_0_0_1_n_n 96 rfl rfl).symm k) = ix2 p k := funext fun x => Fin.ext (by
    match x with
    | ⟨0, _⟩ => exact mm3_lhs_row _ _
    | ⟨1, _⟩ => exact (mm3_lhs_col _ _).trans hk)
  have er : dot_S5000x96_S96x32_S5000x32_1_0_0_1_n_n.rhsIdx (ix2 p q) ((contrEquiv1 dot_S5000x96_S96x32_S5000x32_1_0_0_1_n_n 96 rfl rfl).symm k) = ix2 k q := funext fun x => Fin.ext (by
    match x with
    | ⟨0, _⟩ => exact (mm3_rhs_row _ _).trans hk
    | ⟨1, _⟩ => exact mm3_rhs_col _ _)
  rw [el, er]

/-! ## What each body stores, at a row and a column -/

/-- The first body stores its block of rows times the weight matrix. -/
theorem pay_first (x : Vec Ideal S5000x64 .f32) (w : Vec Ideal S64x96 .f32) (p : Fin 5000) (q : Fin 96) :
    k0_pay1 x w (ix2 p q) = ∑ k : Fin 64, x (ix2 p k) * w (ix2 k q) := by
  unfold k0_pay1
  exact mm1_apply _ _ p q

/-- A one-row bias spread over the 5000 rows of a block reads, at any row, the bias entry of the column. -/
theorem bias_row96 (b : Vec Ideal S1x96 .f32) (p : Fin 5000) (k : Fin 96) :
    broadcastTo S5000x96 (shapeCast S1x96 b shapeCasts_S1x96_S1x96) broadcasts_S1x96_S5000x96 (ix2 p k) = b (ix2 0 k) := by
  rw [shapeCast_self]
  exact broadcastTo_1b_ab_apply b broadcasts_S1x96_S5000x96 p k

theorem bias_row32 (b : Vec Ideal S1x32 .f32) (p : Fin 5000) (k : Fin 32) :
    broadcastTo S5000x32 (shapeCast S1x32 b shapeCasts_S1x32_S1x32) broadcasts_S1x32_S5000x32 (ix2 p k) = b (ix2 0 k) := by
  rw [shapeCast_self]
  exact broadcastTo_1b_ab_apply b broadcasts_S1x32_S5000x32 p k

/-- The second body stores relu(block + bias) times the weight matrix. -/
theorem pay_second (a : Vec Ideal S5000x96 .f32) (b : Vec Ideal S1x96 .f32) (w : Vec Ideal S96x96 .f32) (p : Fin 5000) (q : Fin 96) :
    k1_pay1 a b w (ix2 p q)
      = ∑ k : Fin 96, max (a (ix2 p k) + b (ix2 0 k)) (Ideal.ofBits .f32 0x00000000#32) * w (ix2 k q) := by
  unfold k1_pay1
  refine (mm2_apply _ _ p q).trans ?_
  refine Finset.sum_congr rfl fun k _ => ?_
  show max (shapeCast S5000x96 a shapeCasts_S5000x96_S5000x96 (ix2 p k) + broadcastTo S5000x96 (shapeCast S1x96 b shapeCasts_S1x96_S1x96) broadcasts_S1x96_S5000x96 (ix2 p k)) (Ideal.ofBits .f32 0x00000000#32) * w (ix2 k q) = _
  rw [shapeCast_self, bias_row96]

/-- The last body stores relu(block + bias) times the head's weights, plus the head's bias. -/
theorem pay_head (a : Vec Ideal S5000x96 .f32) (b : Vec Ideal S1x96 .f32) (w : Vec Ideal S96x32 .f32) (bo : Vec Ideal S1x32 .f32) (p : Fin 5000) (q : Fin 32) :
    k2_pay1 a b w bo (ix2 p q)
      = (∑ k : Fin 96, max (a (ix2 p k) + b (ix2 0 k)) (Ideal.ofBits .f32 0x00000000#32) * w (ix2 k q)) + bo (ix2 0 q) := by
  unfold k2_pay1
  show matmul (F := Ideal) dot_S5000x96_S96x32_S5000x32_1_0_0_1_n_n none _ _ (constant S5000x32 .f32 0x00000000#32) (ix2 p q) + broadcastTo S5000x32 (shapeCast S1x32 bo shapeCasts_S1x32_S1x32) broadcasts_S1x32_S5000x32 (ix2 p q) = _
  rw [bias_row32]
  refine congrArg (· + bo (ix2 0 q)) ?_
  refine (mm3_apply _ _ p q).trans ?_
  refine Finset.sum_congr rfl fun k _ => ?_
  show max (shapeCast S5000x96 a shapeCasts_S5000x96_S5000x96 (ix2 p k) + broadcastTo S5000x96 (shapeCast S1x96 b shapeCasts_S1x96_S1x96) broadcasts_S1x96_S5000x96 (ix2 p k)) (Ideal.ofBits .f32 0x00000000#32) * w (ix2 k q) = _
  rw [shapeCast_self, bias_row96]

end Cert.KernelIdeal.Dense

end
-- ==== Proof.RefDense.lean ====
/-
  The reference's three dense stages read at a row `r` and a column `q`, over the extended reals, in the same form
  as the kernel bodies' stored values:

  * x · W1 at (r, q) is ∑ₖ x(r,k) · W1(k,q);
  * relu(agg₁ + b1) · W2 at (r, q) is ∑ₖ max (agg₁(r,k) + b1(k)) 0 · W2(k,q), where agg₁ is the first aggregation
    (the scatter-add of the gathered, edge-scaled rows), kept as the stage the reference computes;
  * relu(agg₂ + b2) · Wfc + bfc at (r, q) is (∑ₖ max (agg₂(r,k) + b2(k)) 0 · Wfc(k,q)) + bfc(q).

  The host's dot product is the plain sum over the shared coordinate; the bias is spread over the rows by two
  broadcasts that read entry k at every row; relu is the maximum with the zero word the program spells.
-/
import proofs.«152318_j37847251812925_1_alg».proof.Proof.Gen.ReferenceIdeal.Read

noncomputable section

namespace Cert.ReferenceIdeal.Stage

open Cert.ReferenceIdeal Cert.ReferenceIdeal.Read Idealize.ShloMosaic Idealize.ShloMosaic.ValueIdx

variable [hF : Cert.ReferenceIdeal.Facts]

/-- The first layer's feature map at a row and a column. -/
theorem first_apply (x0 : (⟨S50000x64, .f32⟩ : BufTy).Contents (Elt Ideal)) (x2 : (⟨S64x96, .f32⟩ : BufTy).Contents (Elt Ideal)) (r : Fin 50000) (q : Fin 96) :
    val_main_v27 (F := Ideal) x0 x2 (ix2 r q) = ∑ k : Fin 64, x0 (ix2 r k) * x2 (ix2 k q) := by
  rw [val_main_v27_apply]
  refine Finset.sum_congr rfl fun k _ => ?_
  have el : lidx_main_v27 (ix2 r q) k = ix2 r k := funext fun a => Fin.ext (by
    match a with
    | ⟨0, _⟩ => rfl
    | ⟨1, _⟩ => rfl)
  have er : ridx_main_v27 (ix2 r q) k = ix2 k q := funext fun a => Fin.ext (by
    match a with
    | ⟨0, _⟩ => rfl
    | ⟨1, _⟩ => rfl)
  rw [el, er]

/-- The second layer's feature map at a row and a column, over the first aggregation. -/
theorem second_apply (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal)) (r : Fin 50000) (q : Fin 96) :
    val_main_v45 (F := Ideal) x0 x1 x2 x3 x4 (ix2 r q)
      = ∑ k : Fin 96, max (val_main_v40 (F := Ideal) x0 x1 x2 (ix2 r k) + x3 (ix1 k)) (Ideal.ofBits .f32 0x00000000#32) * x4 (ix2 k q) := by
  rw [val_main_v45_apply]
  refine Finset.sum_congr rfl fun k _ => ?_
  have el : lidx_main_v45 (ix2 r q) k = ix2 r k := funext fun a => Fin.ext (by
    match a with
    | ⟨0, _⟩ => rfl
    | ⟨1, _⟩ => rfl)
  have er : ridx_main_v45 (ix2 r q) k = ix2 k q := funext fun a => Fin.ext (by
    match a with
    | ⟨0, _⟩ => rfl
    | ⟨1, _⟩ => rfl)
  have eb : idx_main_v41 (idx_main_v42 (ix2 r k : S50000x96.Idx)) = ix1 k := funext fun a => Fin.ext (by
    match a with
    | ⟨0, _⟩ => rfl)
  rw [el, er, val_main_v44_apply, val_main_v43_apply, val_main_v42_apply, val_main_v41_apply, val_main_call0_v0_apply,
    val_main_call0_cst_apply, eb]
  rfl

/-- The linear head at a row and a column, over the second aggregation. -/
theorem head_apply (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal)) (r : Fin 50000) (q : Fin 32) :
    val_main_v66 (F := Ideal) x0 x1 x2 x3 x4 x5 x6 x7 (ix2 r q)
      = (∑ k : Fin 96, max (val_main_v58 (F := Ideal) x0 x1 x2 x3 x4 (ix2 r k) + x5 (ix1 k)) (Ideal.ofBits .f32 0x00000000#32) * x6 (ix2 k q)) + x7 (ix1 q) := by
  rw [val_main_v66_apply, val_main_v65_apply, val_main_v64_apply, val_main_v63_apply]
  have eo : idx_main_v64 (idx_main_v65 (ix2 r q : S50000x32.Idx)) = ix1 q := funext fun a => Fin.ext (by
    match a with
    | ⟨0, _⟩ => rfl)
  rw [eo]
  refine congrArg (· + x7 (ix1 q)) ?_
  refine Finset.sum_congr rfl fun k _ => ?_
  have el : lidx_main_v63 (ix2 r q) k = ix2 r k := funext fun a => Fin.ext (by
    match a with
    | ⟨0, _⟩ => rfl
    | ⟨1, _⟩ => rfl)
  have er : ridx_main_v63 (ix2 r q) k = ix2 k q := funext fun a => Fin.ext (by
    match a with
    | ⟨0, _⟩ => rfl
    | ⟨1, _⟩ => rfl)
  have eb : idx_main_v59 (idx_main_v60 (ix2 r k : S50000x96.Idx)) = ix1 k := funext fun a => Fin.ext (by
    match a with
    | ⟨0, _⟩ => rfl)
  rw [el, er, val_main_v62_apply, val_main_v61_apply, val_main_v60_apply, val_main_v59_apply, val_main_call1_v0_apply,
    val_main_call1_cst_apply, eb]
  rfl

end Cert.ReferenceIdeal.Stage

end
-- ==== Proof.Bridge.lean ====
/-
  One block of 5000 rows of each kernel body's result IS the corresponding rows of the reference's dense stage.

  Hypotheses say how the body's operands read the whole arrays: the row operand's entry (p, k) is the array's entry
  (5000·t + p, k) (block `t` of the rows), the weights are the whole weight matrix, and a one-row bias entry (0, k) is the
  bias vector's entry k. Then the body's entry (p, q) and the stage's entry (5000·t + p, q) are the same sum, term by
  term: no algebraic law is used beyond rewriting the operands, so no finiteness of the inputs is needed.
-/
import proofs.«152318_j37847251812925_1_alg».proof.Proof.Dense
import proofs.«152318_j37847251812925_1_alg».proof.Proof.RefDense

noncomputable section

namespace Cert.KernelIdeal.Bridge

open Idealize.ShloMosaic Idealize.ShloMosaic.ValueIdx
open Cert.KernelIdeal Cert.KernelIdeal.Gen Cert.KernelIdeal.Dense
open Cert.ReferenceIdeal.Read Cert.ReferenceIdeal.Stage

variable [hK : Cert.KernelIdeal.Facts] [hR : Cert.ReferenceIdeal.Facts]

/-- Block `t` of the first product is rows 5000·t … 5000·t + 4999 of x · W1. -/
theorem first_block (x0 : (⟨S50000x64, .f32⟩ : BufTy).Contents (Elt Ideal)) (x2 : (⟨S64x96, .f32⟩ : BufTy).Contents (Elt Ideal))
    (x : Vec Ideal S5000x64 .f32) (w : Vec Ideal S64x96 .f32) (t : ℕ)
    (hx : ∀ (p : Fin 5000) (k : Fin 64) (r : Fin 50000), r.val = 5000 * t + p.val → x (ix2 p k) = x0 (ix2 r k))
    (hw : ∀ (k : Fin 64) (q : Fin 96), w (ix2 k q) = x2 (ix2 k q))
    (p : Fin 5000) (q : Fin 96) (r : Fin 50000) (hr : r.val = 5000 * t + p.val) :
    k0_pay1 x w (ix2 p q) = val_main_v27 (F := Ideal) x0 x2 (ix2 r q) := by
  rw [pay_first, first_apply]
  refine Finset.sum_congr rfl fun k _ => ?_
  rw [hx p k r hr, hw k q]

/-- Block `t` of the second product is the same rows of relu(agg₁ + b1) · W2. -/
theorem second_block (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal))
    (a : Vec Ideal S5000x96 .f32) (b : Vec Ideal S1x96 .f32) (w : Vec Ideal S96x96 .f32) (t : ℕ)
    (ha : ∀ (p : Fin 5000) (k : Fin 96) (r : Fin 50000), r.val = 5000 * t + p.val → a (ix2 p k) = val_main_v40 (F := Ideal) x0 x1 x2 (ix2 r k))
    (hb : ∀ k : Fin 96, b (ix2 0 k) = x3 (ix1 k))
    (hw : ∀ (k : Fin 96) (q : Fin 96), w (ix2 k q) = x4 (ix2 k q))
    (p : Fin 5000) (q : Fin 96) (r : Fin 50000) (hr : r.val = 5000 * t + p.val) :
    k1_pay1 a b w (ix2 p q) = val_main_v45 (F := Ideal) x0 x1 x2 x3 x4 (ix2 r q) := by
  rw [pay_second, second_apply]
  refine Finset.sum_congr rfl fun k _ => ?_
  rw [ha p k r hr, hb k, hw k q]

/-- Block `t` of the head is the same rows of relu(agg₂ + b2) · Wfc + bfc. -/
theorem head_block (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal))
    (a : Vec Ideal S5000x96 .f32) (b : Vec Ideal S1x96 .f32) (w : Vec Ideal S96x32 .f32) (bo : Vec Ideal S1x32 .f32) (t : ℕ)
    (ha : ∀ (p : Fin 5000) (k : Fin 96) (r : Fin 50000), r.val = 5000 * t + p.val → a (ix2 p k) = val_main_v58 (F := Ideal) x0 x1 x2 x3 x4 (ix2 r k))
    (hb : ∀ k : Fin 96, b (ix2 0 k) = x5 (ix1 k))
    (hw : ∀ (k : Fin 96) (q : Fin 32), w (ix2 k q) = x6 (ix2 k q))
    (hbo : ∀ q : Fin 32, bo (ix2 0 q) = x7 (ix1 q))
    (p : Fin 5000) (q : Fin 32) (r : Fin 50000) (hr : r.val = 5000 * t + p.val) :
    k2_pay1 a b w bo (ix2 p q) = val_main_v66 (F := Ideal) x0 x1 x2 x3 x4 x5 x6 x7 (ix2 r q) := by
  rw [pay_head, head_apply, hbo q]
  refine congrArg (· + x7 (ix1 q)) ?_
  refine Finset.sum_congr rfl fun k _ => ?_
  rw [ha p k r hr, hb k, hw k q]

end Cert.KernelIdeal.Bridge

end
-- ==== Proof.FirstProduct.lean ====
/-
  The first row-tiled product, through its pipeline: the output array after the region's ten grid points IS the reference's dense
  stage x · W1 of the arrays the region found on entry.

  The output is tiled into ten blocks of 5000 rows; point `t` reads rows 5000·t … 5000·t + 4999 of the row operand
  (its block index is (t, 0)), the whole weight matrix and the whole one-row biases (block index (0, 0)), and writes
  back rows 5000·t … 5000·t + 4999 of the output. So what point `t` writes back is block `t` of the stage (the block-level
  identity of the dense stages), row r of the output lies in the block of point r / 5000, and the ten blocks cover the
  array: the array ends holding the stage. The entry contents are a parameter throughout.
-/
import proofs.«152318_j37847251812925_1_alg».proof.Proof.Gen.KernelIdeal.Frame
import proofs.«152318_j37847251812925_1_alg».proof.Proof.Bridge
import Idealize.ShloMosaic.Lib.Pipeline.Value

set_option maxRecDepth 16384

noncomputable section

namespace Cert.KernelIdeal.FirstProduct

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

variable (V : (c : Dev nD) → (b : Ref sig .tc) → Buf (Elt Ideal) ((c : Thread nD τ).loc b))

theorem zero_offsets : (![0, 0] : Fin 2 → Nat) = fun _ => 0 := funext fun a => by fin_cases a <;> rfl

/-! ## The first product: x · W1 -/

/-- The block indices at point `t`: rows move with the point, everything else stays. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row operand's block at point `t` is rows 5000·t … of x. -/
theorem rows0 (c : Dev nD) (t : Fin cfg0.N) (p : Fin 5000) (k : Fin 64) (r : Fin 50000) (hr : r.val = 5000 * t.val + p.val) :
    (iblk0 V c 0 t : Vec Ideal S5000x64 .f32) (ix2 p k) = (V c main_arg0 : S50000x64.Idx → Elt Ideal .f32) (ix2 r k) := by
  obtain ⟨e0, e1, -⟩ := index0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight operand's block at any point is the whole of W1. -/
theorem weights0 (c : Dev nD) (t : Fin cfg0.N) (k : Fin 64) (q : Fin 96) :
    (iblk0 V c 1 t : Vec Ideal S64x96 .f32) (ix2 k q) = (V c main_arg2 : S64x96.Idx → Elt Ideal .f32) (ix2 k q) := by
  obtain ⟨-, -, e2, e3, -⟩ := index0 t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e2]; omega
  | ⟨1, _⟩ => show win0_1.index t (1 : Fin 2) * 96 + 1 * q.val = q.val; rw [e3]; omega

/-- Reading any array through point `t`'s output block: entry (p, q) of the block is entry (5000·t + p, q) of the array. -/
theorem read_block0 (G : S50000x96.Idx → Elt Ideal .f32) (t : Fin cfg0.N) (p : Fin 5000) (q : Fin 96) (r : Fin 50000)
    (hr : r.val = 5000 * t.val + p.val) :
    ((cfg0.win 2).blk t).view.read (Elt Ideal) G (ix2 p q) = G (ix2 r q) := by
  have e4 : win0_2.index t (0 : Fin 2) = t.val := (index0 t).2.2.2.2.1
  have e5 : win0_2.index t (1 : Fin 2) = 0 := (index0 t).2.2.2.2.2
  rw [View.read_apply]
  show G _ = G _
  congr 1
  funext a
  apply Fin.ext
  match a with
  | ⟨0, _⟩ => show win0_2.index t (0 : Fin 2) * 5000 + 1 * p.val = r.val; rw [e4, hr]; omega
  | ⟨1, _⟩ => show win0_2.index t (1 : Fin 2) * 96 + 1 * q.val = q.val; rw [e5]; omega

/-- The output block is written back whole: what is written at (p, q) is the staging buffer's entry (p, q). -/
theorem written_block0 (X : S5000x96.Idx → Elt Ideal .f32) (t : Fin cfg0.N) (p : Fin 5000) (q : Fin 96) :
    (cfg0.win 2).cut (grid0.coords t) X (ix2 p q) = X (ix2 p q) := rfl

/-- What point `t` writes back is block `t` of x · W1. -/
theorem flushed0 (c : Dev nD) (t : Fin cfg0.N) :
    (dat0 V c).flushed 2 t = ((cfg0.win 2).blk t).view.read (Elt Ideal) (val_main_v27 (F := Ideal) (V c main_arg0) (V c main_arg2)) := by
  have hN : cfg0.N = 10 := N_0
  have ht : t.val < 10 := hN ▸ t.isLt
  show (cfg0.win 2).cut (grid0.coords t) ((dat0 V c).after 2 t) = _
  rw [after0_2]
  unfold out0_2
  rw [View.canon_unit_zero zero_offsets]
  simp only [View.ld_unit_zero (S := S5000x64) zero_offsets, View.ld_unit_zero (S := S64x96) zero_offsets]
  funext j
  obtain ⟨p, q, rfl⟩ : ∃ (p : Fin 5000) (q : Fin 96), j = ix2 p q := ⟨j 0, j 1, eq_ix2 j⟩
  exact ((written_block0 (k0_pay1 (iblk0 V c 0 t) (iblk0 V c 1 t)) t p q).trans
    (Bridge.first_block (V c main_arg0) (V c main_arg2) (iblk0 V c 0 t) (iblk0 V c 1 t) t.val
      (fun p k r h => rows0 V c t p k r h) (fun k q => weights0 V c t k q) p q ⟨5000 * t.val + p.val, by omega⟩ rfl)).trans
    (read_block0 (val_main_v27 (F := Ideal) (V c main_arg0) (V c main_arg2)) t p q ⟨5000 * t.val + p.val, by omega⟩ rfl).symm

/-- An index lies in point `t`'s output block iff each coordinate is in the block's range on its axis. -/
theorem mem_block0 (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v27).slice (win0_2.rect t)).set ↔ _
  rw [View.set_slice_whole, Rect.mem_set_unit]
  exact Iff.rfl

/-- Row r of the output lies in the block of point r / 5000. -/
theorem cover0 (c : Dev nD) (i : S50000x96.Idx) :
    ∃ t : Fin cfg0.N, (cfg0.win 2).flush t = true ∧ i ∈ ((cfg0.win 2).blk t).view.set := by
  have hN : cfg0.N = 10 := N_0
  have hi0 : (i 0).val < 50000 := (i 0).isLt
  have hi1 : (i 1).val < 96 := (i 1).isLt
  have hlt : (i 0).val / 5000 < cfg0.N := by rw [hN]; omega
  have e4 : win0_2.index ⟨(i 0).val / 5000, hlt⟩ (0 : Fin 2) = (i 0).val / 5000 := (index0 ⟨(i 0).val / 5000, hlt⟩).2.2.2.2.1
  have e5 : win0_2.index ⟨(i 0).val / 5000, hlt⟩ (1 : Fin 2) = 0 := (index0 ⟨(i 0).val / 5000, hlt⟩).2.2.2.2.2
  refine ⟨⟨(i 0).val / 5000, hlt⟩, flush0_2 _, ?_⟩
  rw [mem_block0]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]; omega
  | ⟨1, _⟩ =>
    show win0_2.index ⟨(i 0).val / 5000, hlt⟩ (1 : Fin 2) * 96 ≤ (i 1).val ∧ (i 1).val < win0_2.index ⟨(i 0).val / 5000, hlt⟩ (1 : Fin 2) * 96 + 96
    rw [e5]; omega

/-- After the region the output array holds x · W1 of the arrays the region found. -/
theorem final0 (c : Dev nD) :
    (dat0 V c).arrAt 2 cfg0.N = val_main_v27 (F := Ideal) (V c main_arg0) (V c main_arg2) :=
  (dat0 V c).arrAt_eq_of_cover 2 _ (fun t _ => flushed0 V c t) (cover0 c)

end Cert.KernelIdeal.FirstProduct

end
-- ==== Proof.SecondProduct.lean ====
/-
  The second row-tiled product, through its pipeline: the output array after the region's ten grid points IS the reference's dense
  stage relu(agg₁ + b1) · W2 of the arrays the region found on entry.

  The output is tiled into ten blocks of 5000 rows; point `t` reads rows 5000·t … 5000·t + 4999 of the row operand
  (its block index is (t, 0)), the whole weight matrix and the whole one-row biases (block index (0, 0)), and writes
  back rows 5000·t … 5000·t + 4999 of the output. So what point `t` writes back is block `t` of the stage (the block-level
  identity of the dense stages), row r of the output lies in the block of point r / 5000, and the ten blocks cover the
  array: the array ends holding the stage. The entry contents are a parameter throughout.
-/
import proofs.«152318_j37847251812925_1_alg».proof.Proof.Gen.KernelIdeal.Frame
import proofs.«152318_j37847251812925_1_alg».proof.Proof.Bridge
import Idealize.ShloMosaic.Lib.Pipeline.Value

set_option maxRecDepth 16384

noncomputable section

namespace Cert.KernelIdeal.SecondProduct

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

variable (V : (c : Dev nD) → (b : Ref sig .tc) → Buf (Elt Ideal) ((c : Thread nD τ).loc b))

theorem zero_offsets : (![0, 0] : Fin 2 → Nat) = fun _ => 0 := funext fun a => by fin_cases a <;> rfl

/-! ## The second product: relu(agg₁ + b1) · W2 -/

/-- The block indices at point `t`: rows move with the point, everything else stays. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row operand's block at point `t` is rows 5000·t … of the aggregated features. -/
theorem rows1 (c : Dev nD) (t : Fin cfg1.N) (p : Fin 5000) (k : Fin 96) (r : Fin 50000) (hr : r.val = 5000 * t.val + p.val) :
    (iblk1 V c 0 t : Vec Ideal S5000x96 .f32) (ix2 p k) = (V c main_v40 : S50000x96.Idx → Elt Ideal .f32) (ix2 r k) := by
  have e0 : win1_0.index t (0 : Fin 2) = t.val := (index1 t).1
  have e1 : win1_0.index t (1 : Fin 2) = 0 := (index1 t).2.1
  unfold iblk1
  rw [View.read_apply]
  show V c main_v40 _ = V c main_v40 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 96 + 1 * k.val = k.val; rw [e1]; omega

/-- The bias operand's block at any point is the whole one-row bias. -/
theorem bias1 (c : Dev nD) (t : Fin cfg1.N) (k : Fin 1) (q : Fin 96) :
    (iblk1 V c 1 t : Vec Ideal S1x96 .f32) (ix2 k q) = (V c main_v41 : S1x96.Idx → Elt Ideal .f32) (ix2 k q) := by
  have e0 : win1_1.index t (0 : Fin 2) = 0 := (index1 t).2.2.1
  have e1 : win1_1.index t (1 : Fin 2) = 0 := (index1 t).2.2.2.1
  unfold iblk1
  rw [View.read_apply]
  show V c main_v41 _ = V c main_v41 _
  congr 1
  funext a
  apply Fin.ext
  match a with
  | ⟨0, _⟩ => show win1_1.index t (0 : Fin 2) * 1 + 1 * k.val = k.val; rw [e0]; omega
  | ⟨1, _⟩ => show win1_1.index t (1 : Fin 2) * 96 + 1 * q.val = q.val; rw [e1]; omega

/-- The weight operand's block at any point is the whole of W2. -/
theorem weights1 (c : Dev nD) (t : Fin cfg1.N) (k : Fin 96) (q : Fin 96) :
    (iblk1 V c 2 t : Vec Ideal S96x96 .f32) (ix2 k q) = (V c main_arg4 : S96x96.Idx → Elt Ideal .f32) (ix2 k q) := by
  have e0 : win1_2.index t (0 : Fin 2) = 0 := (index1 t).2.2.2.2.1
  have e1 : win1_2.index t (1 : Fin 2) = 0 := (index1 t).2.2.2.2.2.1
  unfold iblk1
  rw [View.read_apply]
  show V c main_arg4 _ = V c main_arg4 _
  congr 1
  funext a
  apply Fin.ext
  match a with
  | ⟨0, _⟩ => show win1_2.index t (0 : Fin 2) * 96 + 1 * k.val = k.val; rw [e0]; omega
  | ⟨1, _⟩ => show win1_2.index t (1 : Fin 2) * 96 + 1 * q.val = q.val; rw [e1]; omega

/-- Reading any array through point `t`'s output block: entry (p, q) of the block is entry (5000·t + p, q) of the array. -/
theorem read_block1 (G : S50000x96.Idx → Elt Ideal .f32) (t : Fin cfg1.N) (p : Fin 5000) (q : Fin 96) (r : Fin 50000)
    (hr : r.val = 5000 * t.val + p.val) :
    ((cfg1.win 3).blk t).view.read (Elt Ideal) G (ix2 p q) = G (ix2 r q) := by
  have e4 : win1_3.index t (0 : Fin 2) = t.val := (index1 t).2.2.2.2.2.2.1
  have e5 : win1_3.index t (1 : Fin 2) = 0 := (index1 t).2.2.2.2.2.2.2
  rw [View.read_apply]
  show G _ = G _
  congr 1
  funext a
  apply Fin.ext
  match a with
  | ⟨0, _⟩ => show win1_3.index t (0 : Fin 2) * 5000 + 1 * p.val = r.val; rw [e4, hr]; omega
  | ⟨1, _⟩ => show win1_3.index t (1 : Fin 2) * 96 + 1 * q.val = q.val; rw [e5]; omega

/-- The output block is written back whole: what is written at (p, q) is the staging buffer's entry (p, q). -/
theorem written_block1 (X : S5000x96.Idx → Elt Ideal .f32) (t : Fin cfg1.N) (p : Fin 5000) (q : Fin 96) :
    (cfg1.win 3).cut (grid1.coords t) X (ix2 p q) = X (ix2 p q) := rfl

/-- What point `t` writes back is block `t` of relu(agg₁ + b1) · W2, when the region finds the aggregation in its row
    operand, the bias vector in its one-row bias and W2 in its weights. -/
theorem flushed1 (c : Dev nD) (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal))
    (hA : ∀ (r : Fin 50000) (k : Fin 96), (V c main_v40 : S50000x96.Idx → Elt Ideal .f32) (ix2 r k) = val_main_v40 (F := Ideal) x0 x1 x2 (ix2 r k))
    (hb : ∀ k : Fin 96, (V c main_v41 : S1x96.Idx → Elt Ideal .f32) (ix2 0 k) = x3 (ix1 k))
    (hW : ∀ (k : Fin 96) (q : Fin 96), (V c main_arg4 : S96x96.Idx → Elt Ideal .f32) (ix2 k q) = x4 (ix2 k q))
    (t : Fin cfg1.N) :
    (dat1 V c).flushed 3 t = ((cfg1.win 3).blk t).view.read (Elt Ideal) (val_main_v45 (F := Ideal) x0 x1 x2 x3 x4) := by
  have hN : cfg1.N = 10 := N_1
  have ht : t.val < 10 := hN ▸ t.isLt
  show (cfg1.win 3).cut (grid1.coords t) ((dat1 V c).after 3 t) = _
  rw [after1_3]
  unfold out1_3
  rw [View.canon_unit_zero zero_offsets]
  simp only [View.ld_unit_zero (S := S5000x96) zero_offsets, View.ld_unit_zero (S := S1x96) zero_offsets, View.ld_unit_zero (S := S96x96) zero_offsets]
  funext j
  obtain ⟨p, q, rfl⟩ : ∃ (p : Fin 5000) (q : Fin 96), j = ix2 p q := ⟨j 0, j 1, eq_ix2 j⟩
  exact ((written_block1 (k1_pay1 (iblk1 V c 0 t) (iblk1 V c 1 t) (iblk1 V c 2 t)) t p q).trans
    (Bridge.second_block x0 x1 x2 x3 x4 (iblk1 V c 0 t) (iblk1 V c 1 t) (iblk1 V c 2 t) t.val
      (fun p k r h => (rows1 V c t p k r h).trans (hA r k)) (fun k => (bias1 V c t 0 k).trans (hb k))
      (fun k q => (weights1 V c t k q).trans (hW k q)) p q ⟨5000 * t.val + p.val, by omega⟩ rfl)).trans
    (read_block1 (val_main_v45 (F := Ideal) x0 x1 x2 x3 x4) t p q ⟨5000 * t.val + p.val, by omega⟩ rfl).symm

/-- An index lies in point `t`'s output block iff each coordinate is in the block's range on its axis. -/
theorem mem_block1 (t : Fin cfg1.N) (i : S50000x96.Idx) :
    i ∈ ((cfg1.win 3).blk t).view.set ↔ ∀ a : Fin 2, win1_3.index t a * S5000x96.size a ≤ (i a).val ∧ (i a).val < win1_3.index t a * S5000x96.size a + S5000x96.size a := by
  show i ∈ ((View.whole main_v42).slice (win1_3.rect t)).set ↔ _
  rw [View.set_slice_whole, Rect.mem_set_unit]
  exact Iff.rfl

/-- Row r of the output lies in the block of point r / 5000. -/
theorem cover1 (c : Dev nD) (i : S50000x96.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 96 := (i 1).isLt
  have hlt : (i 0).val / 5000 < cfg1.N := by rw [hN]; omega
  have e4 : win1_3.index ⟨(i 0).val / 5000, hlt⟩ (0 : Fin 2) = (i 0).val / 5000 := (index1 ⟨(i 0).val / 5000, hlt⟩).2.2.2.2.2.2.1
  have e5 : win1_3.index ⟨(i 0).val / 5000, hlt⟩ (1 : Fin 2) = 0 := (index1 ⟨(i 0).val / 5000, hlt⟩).2.2.2.2.2.2.2
  refine ⟨⟨(i 0).val / 5000, hlt⟩, flush1_3 _, ?_⟩
  rw [mem_block1]
  intro a
  match a with
  | ⟨0, _⟩ =>
    show win1_3.index ⟨(i 0).val / 5000, hlt⟩ (0 : Fin 2) * 5000 ≤ (i 0).val ∧ (i 0).val < win1_3.index ⟨(i 0).val / 5000, hlt⟩ (0 : Fin 2) * 5000 + 5000
    rw [e4]; omega
  | ⟨1, _⟩ =>
    show win1_3.index ⟨(i 0).val / 5000, hlt⟩ (1 : Fin 2) * 96 ≤ (i 1).val ∧ (i 1).val < win1_3.index ⟨(i 0).val / 5000, hlt⟩ (1 : Fin 2) * 96 + 96
    rw [e5]; omega

/-- After the region the output array holds relu(agg₁ + b1) · W2. -/
theorem final1 (c : Dev nD) (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal))
    (hA : ∀ (r : Fin 50000) (k : Fin 96), (V c main_v40 : S50000x96.Idx → Elt Ideal .f32) (ix2 r k) = val_main_v40 (F := Ideal) x0 x1 x2 (ix2 r k))
    (hb : ∀ k : Fin 96, (V c main_v41 : S1x96.Idx → Elt Ideal .f32) (ix2 0 k) = x3 (ix1 k))
    (hW : ∀ (k : Fin 96) (q : Fin 96), (V c main_arg4 : S96x96.Idx → Elt Ideal .f32) (ix2 k q) = x4 (ix2 k q)) :
    (dat1 V c).arrAt 3 cfg1.N = val_main_v45 (F := Ideal) x0 x1 x2 x3 x4 :=
  (dat1 V c).arrAt_eq_of_cover 3 _ (fun t _ => flushed1 V c x0 x1 x2 x3 x4 hA hb hW t) (cover1 c)

end Cert.KernelIdeal.SecondProduct

end
-- ==== Proof.Head.lean ====
/-
  The row-tiled linear head, through its pipeline: the output array after the region's ten grid points IS the reference's dense
  stage relu(agg₂ + b2) · Wfc + bfc of the arrays the region found on entry.

  The output is tiled into ten blocks of 5000 rows; point `t` reads rows 5000·t … 5000·t + 4999 of the row operand
  (its block index is (t, 0)), the whole weight matrix and the whole one-row biases (block index (0, 0)), and writes
  back rows 5000·t … 5000·t + 4999 of the output. So what point `t` writes back is block `t` of the stage (the block-level
  identity of the dense stages), row r of the output lies in the block of point r / 5000, and the ten blocks cover the
  array: the array ends holding the stage. The entry contents are a parameter throughout.
-/
import proofs.«152318_j37847251812925_1_alg».proof.Proof.Gen.KernelIdeal.Frame
import proofs.«152318_j37847251812925_1_alg».proof.Proof.Bridge
import Idealize.ShloMosaic.Lib.Pipeline.Value

set_option maxRecDepth 16384

noncomputable section

namespace Cert.KernelIdeal.Head

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

variable (V : (c : Dev nD) → (b : Ref sig .tc) → Buf (Elt Ideal) ((c : Thread nD τ).loc b))

theorem zero_offsets : (![0, 0] : Fin 2 → Nat) = fun _ => 0 := funext fun a => by fin_cases a <;> rfl

/-! ## The linear head: relu(agg₂ + b2) · Wfc + bfc -/

/-- The block indices at point `t`: rows move with the point, everything else stays. -/
theorem index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The row operand's block at point `t` is rows 5000·t … of the aggregated features. -/
theorem rows2 (c : Dev nD) (t : Fin cfg2.N) (p : Fin 5000) (k : Fin 96) (r : Fin 50000) (hr : r.val = 5000 * t.val + p.val) :
    (iblk2 V c 0 t : Vec Ideal S5000x96 .f32) (ix2 p k) = (V c main_v55 : S50000x96.Idx → Elt Ideal .f32) (ix2 r k) := by
  have e0 : win2_0.index t (0 : Fin 2) = t.val := (index2 t).1
  have e1 : win2_0.index t (1 : Fin 2) = 0 := (index2 t).2.1
  unfold iblk2
  rw [View.read_apply]
  show V c main_v55 _ = V c main_v55 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 96 + 1 * k.val = k.val; rw [e1]; omega

/-- The hidden bias operand's block at any point is the whole one-row bias. -/
theorem bias2 (c : Dev nD) (t : Fin cfg2.N) (k : Fin 1) (q : Fin 96) :
    (iblk2 V c 1 t : Vec Ideal S1x96 .f32) (ix2 k q) = (V c main_v56 : S1x96.Idx → Elt Ideal .f32) (ix2 k q) := by
  have e0 : win2_1.index t (0 : Fin 2) = 0 := (index2 t).2.2.1
  have e1 : win2_1.index t (1 : Fin 2) = 0 := (index2 t).2.2.2.1
  unfold iblk2
  rw [View.read_apply]
  show V c main_v56 _ = V c main_v56 _
  congr 1
  funext a
  apply Fin.ext
  match a with
  | ⟨0, _⟩ => show win2_1.index t (0 : Fin 2) * 1 + 1 * k.val = k.val; rw [e0]; omega
  | ⟨1, _⟩ => show win2_1.index t (1 : Fin 2) * 96 + 1 * q.val = q.val; rw [e1]; omega

/-- The weight operand's block at any point is the whole of Wfc. -/
theorem weights2 (c : Dev nD) (t : Fin cfg2.N) (k : Fin 96) (q : Fin 32) :
    (iblk2 V c 2 t : Vec Ideal S96x32 .f32) (ix2 k q) = (V c main_arg6 : S96x32.Idx → Elt Ideal .f32) (ix2 k q) := by
  have e0 : win2_2.index t (0 : Fin 2) = 0 := (index2 t).2.2.2.2.1
  have e1 : win2_2.index t (1 : Fin 2) = 0 := (index2 t).2.2.2.2.2.1
  unfold iblk2
  rw [View.read_apply]
  show V c main_arg6 _ = V c main_arg6 _
  congr 1
  funext a
  apply Fin.ext
  match a with
  | ⟨0, _⟩ => show win2_2.index t (0 : Fin 2) * 96 + 1 * k.val = k.val; rw [e0]; omega
  | ⟨1, _⟩ => show win2_2.index t (1 : Fin 2) * 32 + 1 * q.val = q.val; rw [e1]; omega

/-- The head's bias operand's block at any point is the whole one-row bias. -/
theorem outbias2 (c : Dev nD) (t : Fin cfg2.N) (k : Fin 1) (q : Fin 32) :
    (iblk2 V c 3 t : Vec Ideal S1x32 .f32) (ix2 k q) = (V c main_v57 : S1x32.Idx → Elt Ideal .f32) (ix2 k q) := by
  have e0 : win2_3.index t (0 : Fin 2) = 0 := (index2 t).2.2.2.2.2.2.1
  have e1 : win2_3.index t (1 : Fin 2) = 0 := (index2 t).2.2.2.2.2.2.2.1
  unfold iblk2
  rw [View.read_apply]
  show V c main_v57 _ = V c main_v57 _
  congr 1
  funext a
  apply Fin.ext
  match a with
  | ⟨0, _⟩ => show win2_3.index t (0 : Fin 2) * 1 + 1 * k.val = k.val; rw [e0]; omega
  | ⟨1, _⟩ => show win2_3.index t (1 : Fin 2) * 32 + 1 * q.val = q.val; rw [e1]; omega

/-- Reading any array through point `t`'s output block: entry (p, q) of the block is entry (5000·t + p, q) of the array. -/
theorem read_block2 (G : S50000x32.Idx → Elt Ideal .f32) (t : Fin cfg2.N) (p : Fin 5000) (q : Fin 32) (r : Fin 50000)
    (hr : r.val = 5000 * t.val + p.val) :
    ((cfg2.win 4).blk t).view.read (Elt Ideal) G (ix2 p q) = G (ix2 r q) := by
  have e4 : win2_4.index t (0 : Fin 2) = t.val := (index2 t).2.2.2.2.2.2.2.2.1
  have e5 : win2_4.index t (1 : Fin 2) = 0 := (index2 t).2.2.2.2.2.2.2.2.2
  rw [View.read_apply]
  show G _ = G _
  congr 1
  funext a
  apply Fin.ext
  match a with
  | ⟨0, _⟩ => show win2_4.index t (0 : Fin 2) * 5000 + 1 * p.val = r.val; rw [e4, hr]; omega
  | ⟨1, _⟩ => show win2_4.index t (1 : Fin 2) * 32 + 1 * q.val = q.val; rw [e5]; omega

/-- The output block is written back whole: what is written at (p, q) is the staging buffer's entry (p, q). -/
theorem written_block2 (X : S5000x32.Idx → Elt Ideal .f32) (t : Fin cfg2.N) (p : Fin 5000) (q : Fin 32) :
    (cfg2.win 4).cut (grid2.coords t) X (ix2 p q) = X (ix2 p q) := rfl

/-- What point `t` writes back is block `t` of relu(agg₂ + b2) · Wfc + bfc, when the region finds the second
    aggregation in its row operand, the two bias vectors in its one-row biases and Wfc in its weights. -/
theorem flushed2 (c : Dev nD) (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal))
    (hA : ∀ (r : Fin 50000) (k : Fin 96), (V c main_v55 : S50000x96.Idx → Elt Ideal .f32) (ix2 r k) = val_main_v58 (F := Ideal) x0 x1 x2 x3 x4 (ix2 r k))
    (hb : ∀ k : Fin 96, (V c main_v56 : S1x96.Idx → Elt Ideal .f32) (ix2 0 k) = x5 (ix1 k))
    (hW : ∀ (k : Fin 96) (q : Fin 32), (V c main_arg6 : S96x32.Idx → Elt Ideal .f32) (ix2 k q) = x6 (ix2 k q))
    (hbo : ∀ q : Fin 32, (V c main_v57 : S1x32.Idx → Elt Ideal .f32) (ix2 0 q) = x7 (ix1 q))
    (t : Fin cfg2.N) :
    (dat2 V c).flushed 4 t = ((cfg2.win 4).blk t).view.read (Elt Ideal) (val_main_v66 (F := Ideal) x0 x1 x2 x3 x4 x5 x6 x7) := by
  have hN : cfg2.N = 10 := N_2
  have ht : t.val < 10 := hN ▸ t.isLt
  show (cfg2.win 4).cut (grid2.coords t) ((dat2 V c).after 4 t) = _
  rw [after2_4]
  unfold out2_4
  rw [View.canon_unit_zero zero_offsets]
  simp only [View.ld_unit_zero (S := S5000x96) zero_offsets, View.ld_unit_zero (S := S1x96) zero_offsets, View.ld_unit_zero (S := S96x32) zero_offsets, View.ld_unit_zero (S := S1x32) zero_offsets]
  funext j
  obtain ⟨p, q, rfl⟩ : ∃ (p : Fin 5000) (q : Fin 32), j = ix2 p q := ⟨j 0, j 1, eq_ix2 j⟩
  exact ((written_block2 (k2_pay1 (iblk2 V c 0 t) (iblk2 V c 1 t) (iblk2 V c 2 t) (iblk2 V c 3 t)) t p q).trans
    (Bridge.head_block x0 x1 x2 x3 x4 x5 x6 x7 (iblk2 V c 0 t) (iblk2 V c 1 t) (iblk2 V c 2 t) (iblk2 V c 3 t) t.val
      (fun p k r h => (rows2 V c t p k r h).trans (hA r k)) (fun k => (bias2 V c t 0 k).trans (hb k))
      (fun k q => (weights2 V c t k q).trans (hW k q)) (fun q => (outbias2 V c t 0 q).trans (hbo q)) p q ⟨5000 * t.val + p.val, by omega⟩ rfl)).trans
    (read_block2 (val_main_v66 (F := Ideal) x0 x1 x2 x3 x4 x5 x6 x7) t p q ⟨5000 * t.val + p.val, by omega⟩ rfl).symm

/-- An index lies in point `t`'s output block iff each coordinate is in the block's range on its axis. -/
theorem mem_block2 (t : Fin cfg2.N) (i : S50000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v58).slice (win2_4.rect t)).set ↔ _
  rw [View.set_slice_whole, Rect.mem_set_unit]
  exact Iff.rfl

/-- Row r of the output lies in the block of point r / 5000. -/
theorem cover2 (c : Dev nD) (i : S50000x32.Idx) :
    ∃ t : Fin cfg2.N, (cfg2.win 4).flush t = true ∧ i ∈ ((cfg2.win 4).blk t).view.set := by
  have hN : cfg2.N = 10 := N_2
  have hi0 : (i 0).val < 50000 := (i 0).isLt
  have hi1 : (i 1).val < 32 := (i 1).isLt
  have hlt : (i 0).val / 5000 < cfg2.N := by rw [hN]; omega
  have e4 : win2_4.index ⟨(i 0).val / 5000, hlt⟩ (0 : Fin 2) = (i 0).val / 5000 := (index2 ⟨(i 0).val / 5000, hlt⟩).2.2.2.2.2.2.2.2.1
  have e5 : win2_4.index ⟨(i 0).val / 5000, hlt⟩ (1 : Fin 2) = 0 := (index2 ⟨(i 0).val / 5000, hlt⟩).2.2.2.2.2.2.2.2.2
  refine ⟨⟨(i 0).val / 5000, hlt⟩, flush2_4 _, ?_⟩
  rw [mem_block2]
  intro a
  match a with
  | ⟨0, _⟩ =>
    show win2_4.index ⟨(i 0).val / 5000, hlt⟩ (0 : Fin 2) * 5000 ≤ (i 0).val ∧ (i 0).val < win2_4.index ⟨(i 0).val / 5000, hlt⟩ (0 : Fin 2) * 5000 + 5000
    rw [e4]; omega
  | ⟨1, _⟩ =>
    show win2_4.index ⟨(i 0).val / 5000, hlt⟩ (1 : Fin 2) * 32 ≤ (i 1).val ∧ (i 1).val < win2_4.index ⟨(i 0).val / 5000, hlt⟩ (1 : Fin 2) * 32 + 32
    rw [e5]; omega

/-- After the region the result array holds relu(agg₂ + b2) · Wfc + bfc. -/
theorem final2 (c : Dev nD) (x0 : (⟨S50000x64, .f32⟩ : BufTy).Contents (Elt Ideal)) (x1 : (⟨S2x800000, .i32⟩ : BufTy).Contents (Elt Ideal)) (x2 : (⟨S64x96, .f32⟩ : BufTy).Contents (Elt Ideal)) (x3 : (⟨S96, .f32⟩ : BufTy).Contents (Elt Ideal)) (x4 : (⟨S96x96, .f32⟩ : BufTy).Contents (Elt Ideal)) (x5 : (⟨S96, .f32⟩ : BufTy).Contents (Elt Ideal)) (x6 : (⟨S96x32, .f32⟩ : BufTy).Contents (Elt Ideal)) (x7 : (⟨S32, .f32⟩ : BufTy).Contents (Elt Ideal))
    (hA : ∀ (r : Fin 50000) (k : Fin 96), (V c main_v55 : S50000x96.Idx → Elt Ideal .f32) (ix2 r k) = val_main_v58 (F := Ideal) x0 x1 x2 x3 x4 (ix2 r k))
    (hb : ∀ k : Fin 96, (V c main_v56 : S1x96.Idx → Elt Ideal .f32) (ix2 0 k) = x5 (ix1 k))
    (hW : ∀ (k : Fin 96) (q : Fin 32), (V c main_arg6 : S96x32.Idx → Elt Ideal .f32) (ix2 k q) = x6 (ix2 k q))
    (hbo : ∀ q : Fin 32, (V c main_v57 : S1x32.Idx → Elt Ideal .f32) (ix2 0 q) = x7 (ix1 q)) :
    (dat2 V c).arrAt 4 cfg2.N = val_main_v66 (F := Ideal) x0 x1 x2 x3 x4 x5 x6 x7 :=
  (dat2 V c).arrAt_eq_of_cover 4 _ (fun t _ => flushed2 V c x0 x1 x2 x3 x4 x5 x6 x7 hA hb hW hbo t) (cover2 c)

end Cert.KernelIdeal.Head

end
-- ==== Proof.Whole.lean ====
/-
  The kernel program's result as a function of its arguments: it is the reference's last stage
  relu(agg₂ + b2) · Wfc + bfc, with agg₂ the aggregation of relu(agg₁ + b1) · W2 and agg₁ the aggregation of x · W1.

  The chain goes through @main's boundaries in order. The first region leaves x · W1; the host aggregates it; the
  second region, finding the aggregate, the one-row bias and W2, leaves relu(agg₁ + b1) · W2; the host aggregates
  again; the last region leaves the head's value in the result buffer. At each region the entry contents are what the
  host stretch before it left; each dense stage is the row-tiled product's whole-array value.
-/
import proofs.«152318_j37847251812925_1_alg».proof.Proof.Result
import proofs.«152318_j37847251812925_1_alg».proof.Proof.Aggregate
import proofs.«152318_j37847251812925_1_alg».proof.Proof.FirstProduct
import proofs.«152318_j37847251812925_1_alg».proof.Proof.SecondProduct
import proofs.«152318_j37847251812925_1_alg».proof.Proof.Head

set_option maxRecDepth 16384

noncomputable section

namespace Cert.KernelIdeal.Whole

open Idealize.ShloMosaic Idealize.ShloMosaic.TcCoe Idealize.SL.Sem Idealize.ShloMosaic.ValueIdx
open Cert.KernelIdeal Cert.KernelIdeal.Gen
open Cert.ReferenceIdeal.Read

variable (m : (ℓ : Loc nD τ sig) → Buf (Elt Ideal) ℓ) (ρ : Dev nD → PrngReg)

/-- After the first region: x · W1. -/
theorem features1 (c : Dev nD) :
    W2 m ρ c (Proc.devRef .tc main_v27) = val_main_v27 (F := Ideal) (m ((c.tc : Thread nD τ).loc main_arg0)) (m ((c.tc : Thread nD τ).loc main_arg2)) := by
  have h := FirstProduct.final0 (V1 m ρ) c
  have e0 : V1 m ρ c main_arg0 = m ((c.tc : Thread nD τ).loc main_arg0) := Aggregate.entry0_arg0 m ρ c
  have e2 : V1 m ρ c main_arg2 = m ((c.tc : Thread nD τ).loc main_arg2) := Aggregate.entry0_arg2 m ρ c
  rw [e0, e2] at h
  exact (W2_arr m ρ c 2).trans h

/-- After the second region: relu(agg₁ + b1) · W2. -/
theorem features2 (c : Dev nD) :
    W4 m ρ c (Proc.devRef .tc main_v42) = val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have hagg := Aggregate.aggregate1 m ρ c (m ((c.tc : Thread nD τ).loc main_arg0)) (m ((c.tc : Thread nD τ).loc main_arg2)) (features1 m ρ c)
  have hw := Aggregate.entry1_arg4 m ρ c
  have h := SecondProduct.final1 (V3 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
    (fun r k => congrFun hagg (ix2 r k))
    (fun k => Aggregate.bias_row1 m ρ c k)
    (fun k q => congrFun hw (ix2 k q))
  exact (W4_arr m ρ c 3).trans h

/-- After the last region: the head's value. -/
theorem result (c : Dev nD) :
    W6 m ρ c (Proc.devRef .tc main_v58) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hagg := Aggregate.aggregate2 m ρ c (m ((c.tc : Thread nD τ).loc main_arg0)) (m ((c.tc : Thread nD τ).loc main_arg2)) (m ((c.tc : Thread nD τ).loc main_arg3)) (m ((c.tc : Thread nD τ).loc main_arg4)) (features2 m ρ c)
  have hw := Aggregate.entry2_arg6 m ρ c
  have h := Head.final2 (V5 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (fun r k => congrFun hagg (ix2 r k))
    (fun k => Aggregate.bias_row2 m ρ c k)
    (fun k q => congrFun hw (ix2 k q))
    (fun q => Aggregate.bias_row_head m ρ c q)
  exact (W6_arr m ρ c 4).trans h

/-- The run, read: every weakly fair execution ends with the result buffer at that value and the arguments as launched. -/
theorem run : θ_run defs (onTc (τ := τ) (main (F := Ideal))) ⟨m, fun _ => 0, ρ⟩ (fun r => ∀ c : Dev nD,
      r.2.mem ((c.tc : Thread nD τ).loc main_v58) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Result.run m ρ)

end Cert.KernelIdeal.Whole

end
-- ==== Proof.lean ====
/-
  A two-layer graph convolution with a linear head, on 50000 nodes and 850000 edges (self loops included):

      h₀ = x · W1,  agg₁ = A h₀,  h₂ = relu(agg₁ + b1) · W2,  agg₂ = A h₂,  out = relu(agg₂ + b2) · Wfc + bfc,

  where A gathers each edge's source row, scales it by the edge's symmetric normalisation coefficient and adds it
  into the edge's destination row. The kernel program computes the three dense stages on the TensorCore, each tiled
  into ten blocks of 5000 rows, with the bias and the relu inside the second and third bodies; the reference computes
  them on the host, whole. A is the same host computation in both programs.

  Over the extended reals the two results are the same array, entry by entry: rounding a product's operands to bf16
  is the identity, a product into a zero accumulator is the plain sum over the shared coordinate, and the row tiling
  only splits the rows. Each entry's sum is matched term by term, so no law that could fail at an infinity is used,
  and the precondition (finite inputs) is not opened. The idealization rewrote nothing, so `preserves` is trivial.
  The frames of the two kernel programs are the generated ones; the reference's frame is its generated run with the
  result dropped.
-/
import proofs.«152318_j37847251812925_1_alg».proof.Defs
import proofs.«152318_j37847251812925_1_alg».proof.Proof.Gen.Kernel
import proofs.«152318_j37847251812925_1_alg».proof.Proof.Gen.Kernel.Frame
import proofs.«152318_j37847251812925_1_alg».proof.Proof.Gen.KernelIdeal
import proofs.«152318_j37847251812925_1_alg».proof.Proof.Gen.KernelIdeal.Frame
import proofs.«152318_j37847251812925_1_alg».proof.Proof.Gen.ReferenceIdeal
import proofs.«152318_j37847251812925_1_alg».proof.Proof.Gen.Pre_finite_inputs
import proofs.«152318_j37847251812925_1_alg».proof.Proof.Gen.ReferenceIdeal.Run
import proofs.«152318_j37847251812925_1_alg».proof.Proof.Gen.ReferenceIdeal.Read
import proofs.«152318_j37847251812925_1_alg».proof.Proof.Whole

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v66_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
